-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256 : Shape := ⟨3, ![4, 256, 256]⟩
abbrev S4x64x256 : Shape := ⟨3, ![4, 64, 256]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S4x64x256 : S_.BroadcastsInDim S4x64x256 (![] : Fin 0 → Fin S4x64x256.rank)
  reducesTo_S4x64x256_S_d0_1_2 : S4x64x256.ReducesTo [0, 1, 2] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S256x512 .f32) (main_arg5 : FVec F S512 .f32) (main_arg6 : FVec F S512x1024 .f32) (main_arg7 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S4x256x256 .f32) (main_arg1 : FVec F S4x64x256 .f32) (main_arg2 : FVec F S256x512 .f32) (main_arg3 : FVec F S512 .f32) (main_arg4 : FVec F S256x512 .f32) (main_arg5 : FVec F S512 .f32) (main_arg6 : FVec F S512x1024 .f32) (main_arg7 : FVec F S1024 .f32) : IVec S_ 1 :=
  let main_v0 : FVec F S4x256x256 .f32 := Host.absf main_arg0
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  let main_v4 : FVec F S4x64x256 .f32 := Host.absf main_arg1
  let main_cst_0 : FVec F S_ .f32 := constant S_ .f32 0x7F800000#32
  let main_v5 : FVec F S4x64x256 .f32 := broadcastInDim S4x64x256 ![] bcast_S_S4x64x256 main_cst_0
  let main_v6 : IVec S4x64x256 1 := cmpf .olt main_v4 main_v5
  let main_c_1 : IVec S_ 1 := constantI S_ 1 1#1
  let main_v7 : IVec S_ 1 := (fun x v => Host.reduce IntOp.andi x v reducesTo_S4x64x256_S_d0_1_2 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4x256x256 : Shape := ⟨3, ![4, 256, 256]⟩
abbrev S4x64x256 : Shape := ⟨3, ![4, 64, 256]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S1x512 : Shape := ⟨2, ![1, 512]⟩
abbrev S1x1024 : Shape := ⟨2, ![1, 1024]⟩
abbrev S4x256x64x1024 : Shape := ⟨4, ![4, 256, 64, 1024]⟩
abbrev S1x32x256 : Shape := ⟨3, ![1, 32, 256]⟩
abbrev S1x64x256 : Shape := ⟨3, ![1, 64, 256]⟩
abbrev S1x32x64x1024 : Shape := ⟨4, ![1, 32, 64, 1024]⟩
abbrev S64x512 : Shape := ⟨2, ![64, 512]⟩
abbrev S64x256 : Shape := ⟨2, ![64, 256]⟩
abbrev S32x256 : Shape := ⟨2, ![32, 256]⟩
abbrev S32x512 : Shape := ⟨2, ![32, 512]⟩
abbrev S32x1x512 : Shape := ⟨3, ![32, 1, 512]⟩
abbrev S1x64x512 : Shape := ⟨3, ![1, 64, 512]⟩
abbrev S32x64x512 : Shape := ⟨3, ![32, 64, 512]⟩
abbrev S2048x512 : Shape := ⟨2, ![2048, 512]⟩
abbrev S2048x1024 : Shape := ⟨2, ![2048, 1024]⟩
abbrev S32x64x1024 : Shape := ⟨3, ![32, 64, 1024]⟩
abbrev S1x1x1024 : Shape := ⟨3, ![1, 1, 1024]⟩

abbrev nBuf : Space → Nat
  | .hbm => 17
  | .vmem => 13
  | .smem => 0
  | _ => 0

abbrev bufTy : (tb : Table) → Fin (tcTables nBuf tb) → BufTy
  | .hbm, ⟨0, _⟩ => ⟨S4x256x256, .f32⟩
  | .hbm, ⟨1, _⟩ => ⟨S4x64x256, .f32⟩
  | .hbm, ⟨2, _⟩ => ⟨S256x512, .f32⟩
  | .hbm, ⟨3, _⟩ => ⟨S512, .f32⟩
  | .hbm, ⟨4, _⟩ => ⟨S256x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S4x256x256, .bf16⟩
  | .hbm, ⟨9, _⟩ => ⟨S4x64x256, .bf16⟩
  | .hbm, ⟨10, _⟩ => ⟨S256x512, .bf16⟩
  | .hbm, ⟨11, _⟩ => ⟨S256x512, .bf16⟩
  | .hbm, ⟨12, _⟩ => ⟨S512x1024, .bf16⟩
  | .hbm, ⟨13, _⟩ => ⟨S1x512, .f32⟩
  | .hbm, ⟨14, _⟩ => ⟨S1x512, .f32⟩
  | .hbm, ⟨15, _⟩ => ⟨S1x1024, .f32⟩
  | .hbm, ⟨16, _⟩ => ⟨S4x256x64x1024, .f32⟩
  | .local _ .vmem, ⟨0, _⟩ => ⟨S1x32x256, .bf16⟩
  | .local _ .vmem, ⟨1, _⟩ => ⟨S1x32x256, .bf16⟩
  | .local _ .vmem, ⟨2, _⟩ => ⟨S1x64x256, .bf16⟩
  | .local _ .vmem, ⟨3, _⟩ => ⟨S1x64x256, .bf16⟩
  | .local _ .vmem, ⟨4, _⟩ => ⟨S256x512, .bf16⟩
  | .local _ .vmem, ⟨5, _⟩ => ⟨S1x512, .f32⟩
  | .local _ .vmem, ⟨6, _⟩ => ⟨S256x512, .bf16⟩
  | .local _ .vmem, ⟨7, _⟩ => ⟨S1x512, .f32⟩
  | .local _ .vmem, ⟨8, _⟩ => ⟨S512x1024, .bf16⟩
  | .local _ .vmem, ⟨9, _⟩ => ⟨S1x1024, .f32⟩
  | .local _ .vmem, ⟨10, _⟩ => ⟨S1x32x64x1024, .f32⟩
  | .local _ .vmem, ⟨11, _⟩ => ⟨S1x32x64x1024, .f32⟩
  | .local _ .vmem, ⟨12, _⟩ => ⟨S64x512, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x32x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  shapeCasts_S512_S1x512 : S512.ShapeCasts S1x512
  shapeCasts_S1024_S1x1024 : S1024.ShapeCasts S1x1024
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S512 : S1x512.ShapeCasts S512
  broadcasts_S1x512_S64x512 : S1x512.Broadcasts S64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  broadcasts_S1x512_S32x512 : S1x512.Broadcasts S32x512
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  shapeCasts_S32x64x512_S2048x512 : S32x64x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S2048x1024_S32x64x1024 : S2048x1024.ShapeCasts S32x64x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  shapeCasts_S1024_S1x1x1024 : S1024.ShapeCasts S1x1x1024
  broadcasts_S1x1x1024_S32x64x1024 : S1x1x1024.Broadcasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S64x256_S256x512_S64x512_1_0_0_1_n_n_wf : DotDims.WF S64x256 S256x512 S64x512 [1] [0] [0] [1] [] []
  dot_S32x256_S256x512_S32x512_1_0_0_1_n_n_wf : DotDims.WF S32x256 S256x512 S32x512 [1] [0] [0] [1] [] []
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256.size a ≤ S4x256x256.size a
  hwx0_0 : ∀ i : grid0.Coords, EltTy.bits .bf16 = 32 ∨ (Rect.block (s := S4x256x256) S1x32x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S4x64x256.size a
  hwx0_1 : ∀ i : grid0.Coords, EltTy.bits .bf16 = 32 ∨ (Rect.block (s := S4x64x256) S1x64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .bf16 = 32 ∨ (Rect.block (s := S512x1024) S512x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x64x1024.size a ≤ S4x256x64x1024.size a
  hwx0_8 : ∀ i : grid0.Coords, EltTy.bits .f32 = 32 ∨ (Rect.block (s := S4x256x64x1024) S1x32x64x1024.size (cc0_transform_8 i) (hinb0_8 i)).WholeWords (EltTy.packing .f32)

variable [Facts₀]

def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S32x256_S256x512_S32x512_1_0_0_1_n_n : DotDims S32x256 S256x512 S32x512 where
  lhsContracting := [1]
  rhsContracting := [0]
  lhsNonContracting := [0]
  rhsNonContracting := [1]
  lhsBatch := []
  rhsBatch := []
  wf := dot_S32x256_S256x512_S32x512_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v0) S1x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x32x64x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x256x256 : Shape := ⟨3, ![4, 256, 256]⟩
abbrev S4x64x256 : Shape := ⟨3, ![4, 64, 256]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S4x256x512 : Shape := ⟨3, ![4, 256, 512]⟩
abbrev S1x1x512 : Shape := ⟨3, ![1, 1, 512]⟩
abbrev S4x64x512 : Shape := ⟨3, ![4, 64, 512]⟩
abbrev S4x256x1x512 : Shape := ⟨4, ![4, 256, 1, 512]⟩
abbrev S4x1x64x512 : Shape := ⟨4, ![4, 1, 64, 512]⟩
abbrev S4x256x64x512 : Shape := ⟨4, ![4, 256, 64, 512]⟩
abbrev S4x256x64x1024 : Shape := ⟨4, ![4, 256, 64, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x64x256, .f32⟩
  | .hbm, ⟨2, _⟩ => ⟨S256x512, .f32⟩
  | .hbm, ⟨3, _⟩ => ⟨S512, .f32⟩
  | .hbm, ⟨4, _⟩ => ⟨S256x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S4x256x512, .f32⟩
  | .hbm, ⟨9, _⟩ => ⟨S1x1x512, .f32⟩
  | .hbm, ⟨10, _⟩ => ⟨S4x256x512, .f32⟩
  | .hbm, ⟨11, _⟩ => ⟨S4x256x512, .f32⟩
  | .hbm, ⟨12, _⟩ => ⟨S4x64x512, .f32⟩
  | .hbm, ⟨13, _⟩ => ⟨S1x1x512, .f32⟩
  | .hbm, ⟨14, _⟩ => ⟨S4x64x512, .f32⟩
  | .hbm, ⟨15, _⟩ => ⟨S4x64x512, .f32⟩
  | .hbm, ⟨16, _⟩ => ⟨S4x256x1x512, .f32⟩
  | .hbm, ⟨17, _⟩ => ⟨S4x1x64x512, .f32⟩
  | .hbm, ⟨18, _⟩ => ⟨S4x256x64x512, .f32⟩
  | .hbm, ⟨19, _⟩ => ⟨S4x256x64x512, .f32⟩
  | .hbm, ⟨20, _⟩ => ⟨S4x256x64x512, .f32⟩
  | .hbm, ⟨21, _⟩ => ⟨S4x256x64x512, .f32⟩
  | .hbm, ⟨22, _⟩ => ⟨S4x256x64x1024, .f32⟩
  | .hbm, ⟨23, _⟩ => ⟨S1x1x1x1024, .f32⟩
  | .hbm, ⟨24, _⟩ => ⟨S4x256x64x1024, .f32⟩
  | .hbm, ⟨25, _⟩ => ⟨S4x256x64x1024, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x256x512_0_1_2 : S1x1x512.BroadcastsInDim S4x256x512 (![0, 1, 2] : Fin 3 → Fin S4x256x512.rank)
  bcast_S1x1x512_S4x64x512_0_1_2 : S1x1x512.BroadcastsInDim S4x64x512 (![0, 1, 2] : Fin 3 → Fin S4x64x512.rank)
  bcast_S4x256x512_S4x256x1x512_0_1_3 : S4x256x512.BroadcastsInDim S4x256x1x512 (![0, 1, 3] : Fin 3 → Fin S4x256x1x512.rank)
  bcast_S4x64x512_S4x1x64x512_0_2_3 : S4x64x512.BroadcastsInDim S4x1x64x512 (![0, 2, 3] : Fin 3 → Fin S4x1x64x512.rank)
  bcast_S4x256x1x512_S4x256x64x512_0_1_2_3 : S4x256x1x512.BroadcastsInDim S4x256x64x512 (![0, 1, 2, 3] : Fin 4 → Fin S4x256x64x512.rank)
  bcast_S4x1x64x512_S4x256x64x512_0_1_2_3 : S4x1x64x512.BroadcastsInDim S4x256x64x512 (![0, 1, 2, 3] : Fin 4 → Fin S4x256x64x512.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  dot_S4x256x256_S256x512_S4x256x512_2_0_01_1_n_n_wf : DotDims.WF S4x256x256 S256x512 S4x256x512 [2] [0] [0, 1] [1] [] []
  dot_S4x64x256_S256x512_S4x64x512_2_0_01_1_n_n_wf : DotDims.WF S4x64x256 S256x512 S4x64x512 [2] [0] [0, 1] [1] [] []
  dot_S4x256x64x512_S512x1024_S4x256x64x1024_3_0_012_1_n_n_wf : DotDims.WF S4x256x64x512 S512x1024 S4x256x64x1024 [3] [0] [0, 1, 2] [1] [] []

variable [Facts₀]

def dot_S4x256x256_S256x512_S4x256x512_2_0_01_1_n_n : DotDims S4x256x256 S256x512 S4x256x512 where
  lhsContracting := [2]
  rhsContracting := [0]
  lhsNonContracting := [0, 1]
  rhsNonContracting := [1]
  lhsBatch := []
  rhsBatch := []
  wf := dot_S4x256x256_S256x512_S4x256x512_2_0_01_1_n_n_wf
def dot_S4x64x256_S256x512_S4x64x512_2_0_01_1_n_n : DotDims S4x64x256 S256x512 S4x64x512 where
  lhsContracting := [2]
  rhsContracting := [0]
  lhsNonContracting := [0, 1]
  rhsNonContracting := [1]
  lhsBatch := []
  rhsBatch := []
  wf := dot_S4x64x256_S256x512_S4x64x512_2_0_01_1_n_n_wf
def dot_S4x256x64x512_S512x1024_S4x256x64x1024_3_0_012_1_n_n : DotDims S4x256x64x512 S512x1024 S4x256x64x1024 where
  lhsContracting := [3]
  rhsContracting := [0]
  lhsNonContracting := [0, 1, 2]
  rhsNonContracting := [1]
  lhsBatch := []
  rhsBatch := []
  wf := dot_S4x256x64x512_S512x1024_S4x256x64x1024_3_0_012_1_n_n_wf

class Facts : Prop extends Facts₀ where

variable [Facts]
-- ==== Proof.KernelPieces.lean ====
/-
  What one run of the kernel body leaves behind, as values.

  The body has two control cases. At the first `t`-tile of a batch (grid coordinate 1 equal to 0) it
  first stores the predictor projection `k0_pay1` of the predictor block, `W_dec` and `b_dec` into the
  scratch, whole, and then reads the scratch back: the output block is `k0_pay2` over that freshly stored
  value. At every other point the scratch is only read: the output block is `k0_pay2` over whatever the
  scratch held on entry, and the scratch is left as it was. Each store covers its whole buffer through
  the zero-offset rectangle, so the buffer's contents after the run are the store's payload.
-/
import proofs.«159690_j43662637531360_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First tile of a batch: the scratch ends holding the predictor projection of the point's predictor block. -/
theorem scratch_first (c : Dev nD) (i : grid0.Coords) (arg2 : Memref sig .tc .vmem S1x32x256 .bf16) (harg2 : arg2.IsWhole) (arg3 : Memref sig .tc .vmem S1x64x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x32x64x1024 .f32) (harg10 : arg10.IsWhole) (arg11 : Memref sig .tc .vmem S64x512 .f32) (harg11 : arg11.IsWhole) (hc0 : cond0_0 i)
    (x0 : Vec F S1x32x256 .bf16) (x1 : Vec F S1x64x256 .bf16) (x2 : Vec F S256x512 .bf16) (x3 : Vec F S1x512 .f32) (x4 : Vec F S256x512 .bf16) (x5 : Vec F S1x512 .f32) (x6 : Vec F S512x1024 .bf16) (x7 : Vec F S1x1024 .f32) :
    sout0_A_0 c i arg2 harg2 arg3 harg3 arg4 harg4 arg5 harg5 arg6 harg6 arg7 harg7 arg8 harg8 arg9 harg9 arg10 harg10 arg11 harg11 hc0 x0 x1 x2 x3 x4 x5 x6 x7 = k0_pay1 x1 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero hz2]
  simp only [View.readAt_eq_ld, harg3.read_unread, harg6.read_unread, harg7.read_unread,
    View.ld_unit_zero (S := S1x64x256) hz3, View.ld_unit_zero (S := S256x512) hz2, View.ld_unit_zero (S := S1x512) hz2]

/-- First tile of a batch: the output block is the logits payload over the projection just stored. -/
theorem out_first (c : Dev nD) (i : grid0.Coords) (arg2 : Memref sig .tc .vmem S1x32x256 .bf16) (harg2 : arg2.IsWhole) (arg3 : Memref sig .tc .vmem S1x64x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x32x64x1024 .f32) (harg10 : arg10.IsWhole) (arg11 : Memref sig .tc .vmem S64x512 .f32) (harg11 : arg11.IsWhole) (hc0 : cond0_0 i)
    (x0 : Vec F S1x32x256 .bf16) (x1 : Vec F S1x64x256 .bf16) (x2 : Vec F S256x512 .bf16) (x3 : Vec F S1x512 .f32) (x4 : Vec F S256x512 .bf16) (x5 : Vec F S1x512 .f32) (x6 : Vec F S512x1024 .bf16) (x7 : Vec F S1x1024 .f32) :
    out0_A_8 c i arg2 harg2 arg3 harg3 arg4 harg4 arg5 harg5 arg6 harg6 arg7 harg7 arg8 harg8 arg9 harg9 arg10 harg10 arg11 harg11 hc0 x0 x1 x2 x3 x4 x5 x6 x7 = k0_pay2 x0 x2 x3 (k0_pay1 x1 x4 x5) x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero hz4, View.readCov_unit_zero (S := S64x512) _ hz2]
  simp only [View.readAt_eq_ld, harg2.read_unread, harg3.read_unread, harg4.read_unread, harg5.read_unread,
    harg6.read_unread, harg7.read_unread, harg8.read_unread, harg9.read_unread,
    View.ld_unit_zero (S := S1x32x256) hz3, View.ld_unit_zero (S := S1x64x256) hz3, View.ld_unit_zero (S := S256x512) hz2,
    View.ld_unit_zero (S := S1x512) hz2, View.ld_unit_zero (S := S512x1024) hz2, View.ld_unit_zero (S := S1x1024) hz2]

/-- A later tile of a batch: the output block is the logits payload over what the scratch held on entry. -/
theorem out_later (c : Dev nD) (i : grid0.Coords) (arg2 : Memref sig .tc .vmem S1x32x256 .bf16) (harg2 : arg2.IsWhole) (arg3 : Memref sig .tc .vmem S1x64x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S256x512 .bf16) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x32x64x1024 .f32) (harg10 : arg10.IsWhole) (arg11 : Memref sig .tc .vmem S64x512 .f32) (harg11 : arg11.IsWhole) (hc0 : ¬cond0_0 i)
    (x0 : Vec F S1x32x256 .bf16) (x1 : Vec F S1x64x256 .bf16) (x2 : Vec F S256x512 .bf16) (x3 : Vec F S1x512 .f32) (x4 : Vec F S256x512 .bf16) (x5 : Vec F S1x512 .f32) (x6 : Vec F S512x1024 .bf16) (x7 : Vec F S1x1024 .f32) (xs0 : Vec F S64x512 .f32) :
    out0_B_8 c i arg2 harg2 arg3 harg3 arg4 harg4 arg5 harg5 arg6 harg6 arg7 harg7 arg8 harg8 arg9 harg9 arg10 harg10 arg11 harg11 hc0 x0 x1 x2 x3 x4 x5 x6 x7 xs0 = k0_pay2 x0 x2 x3 xs0 x6 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 x7 xs0)]
  unfold kernelRun0_B
  dsimp only
  rw [View.canon_unit_zero hz4]
  simp only [View.readAt_eq_ld, harg2.read_unread, harg4.read_unread, harg5.read_unread, harg11.read_unread,
    harg8.read_unread, harg9.read_unread,
    View.ld_unit_zero (S := S1x32x256) hz3, View.ld_unit_zero (S := S256x512) hz2, View.ld_unit_zero (S := S1x512) hz2,
    View.ld_unit_zero (S := S64x512) hz2, View.ld_unit_zero (S := S512x1024) hz2, View.ld_unit_zero (S := S1x1024) hz2]

end Cert.KernelIdeal.Pieces

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibOuterSumLayout.lean ====
/-
  The layout operations of an outer (broadcast) sum of two matrices, read at coordinates.

  To form `x[i, k] + y[j, k]` for all `(i, j, k)` a program views `x : [a, c]` as `[a, 1, c]` and `y : [b, c]`
  as `[1, b, c]`, broadcasts both to `[a, b, c]`, and later flattens the two leading axes: `[a, b, c]` as
  `[a·b, c]` (row `i·b + j`) and back. A bias `[c]` viewed as `[1, 1, c]` and broadcast to `[a, b, c]` reads
  its entry `k` everywhere. Each lemma states one of these operations at an index given by coordinates.
-/
import Idealize.ShloMosaic.Lib.Pipeline.Value
import Idealize.ShloMosaic.Lib.ValueIdx

noncomputable section

namespace Cert.LibOuterSumLayout

open Idealize.ShloMosaic Idealize.ShloMosaic.ValueIdx

variable {α : Type}

/-- An `[a, c]` matrix viewed as `[a, 1, c]` reads, at `(i, z, k)`, its entry `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (z : Fin 1) (k : Fin c) :
    shapeCast ⟨3, ![a, 1, c]⟩ x h (ix3 i z k) = x (ix2 i k) :=
  shapeCast_apply x h _ _ (by
    have hz : z.val = 0 := by omega
    rw [Shape.rowMajor_val_three, Shape.rowMajor_val_two]
    show i.val * c + k.val = (i.val * 1 + z.val) * c + k.val
    rw [hz, Nat.mul_one, Nat.add_zero])

/-- An `[a, 1, c]` array broadcast to `[a, b, c]` reads, at `(i, j, k)`, its entry `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, its entry `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, its entry `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[c]` vector viewed as `[1, 1, c]` reads, at `(z, z', k)`, its entry `k`. -/
theorem shapeCast_c_11c_apply {c : ℕ} (x : (⟨1, ![c]⟩ : Shape).Idx → α)
    (h : (⟨1, ![c]⟩ : Shape).ShapeCasts ⟨3, ![1, 1, c]⟩) (z z' : Fin 1) (k : Fin c) :
    shapeCast ⟨3, ![1, 1, c]⟩ x h (ix3 z z' k) = x (ix1 k) :=
  shapeCast_apply x h _ _ (by
    have hz : z.val = 0 := by omega
    have hz' : z'.val = 0 := by omega
    rw [Shape.rowMajor_val_three, Shape.rowMajor_val_one]
    show k.val = (z.val * 1 + z'.val) * c + k.val
    simp only [hz, hz', Nat.zero_mul, Nat.zero_add, Nat.mul_one, Nat.add_zero])

/-- An `[a, b, c]` array with its two leading axes flattened to `n = a·b` rows reads, at row `p = i·b + j`
    and column `k`, its entry `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (p : Fin n)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- An `[n, c]` matrix with `n = a·b` rows viewed as `[a, b, c]` reads, at `(i, j, k)`, its entry at row
    `p = i·b + j` and column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (p : Fin n)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Cert.LibOuterSumLayout

end
-- ==== Proof.KernelPayload.lean ====
/-
  The two payloads of the kernel body, read at an entry, over the extended reals.

  `k0_pay1` is the predictor projection of one batch: the `[64, 256]` predictor block times `W_dec`, plus
  the bias row broadcast over the 64 rows. `k0_pay2` is one `[32, 64, 1024]` tile of logits: the encoder
  tile's projection (32 rows) and the stored predictor projection (64 rows) are added as an outer sum over
  `(row, step)`, passed through `tanh`, flattened to `2048` rows, multiplied by `W_out` and shifted by the
  output bias. Format changes are the identity on the extended reals and every matrix product into the
  zero matrix is a plain sum of products, so at an entry each payload is the closed expression below.
-/
import proofs.«159690_j43662637531360_1_alg».proof.Proof.Gen.KernelIdeal.Skeleton
import proofs.«159690_j43662637531360_1_alg».proof.Proof.LibPlainMatmul
import proofs.«159690_j43662637531360_1_alg».proof.Proof.LibOuterSumLayout
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.LibPlainMatmul Cert.LibOuterSumLayout

/-- The hyperbolic tangent of a vector, at an entry. -/
theorem tanh_apply {s : Shape} {φ : FTy} (a : FVec Ideal s φ) (i : s.Idx) : tanh a i = Ideal.tanh (a i) := rfl

/-- The predictor projection of a `[1, 64, 256]` block `x1` against `x4` with bias row `x5`, at `(u, j)`. -/
theorem predProj_block (x1 : Vec Ideal S1x64x256 .bf16) (x4 : Vec Ideal S256x512 .bf16) (x5 : Vec Ideal S1x512 .f32)
    (u : Fin 64) (j : Fin 512) :
    k0_pay1 x1 x4 x5 (ix2 u j) = (∑ p : Fin 256, x1 (ix3 (0 : Fin 1) u p) * x4 (ix2 p j)) + x5 (ix2 (0 : Fin 1) j) := by
  unfold k0_pay1
  simp only [shapeCast_self, shapeCast_shapeCast]
  rw [addf_apply]
  simp only [matmul]
  rw [matmul_zero_apply dot_S64x256_S256x512_S64x512_1_0_0_1_n_n rfl rfl rfl rfl rfl rfl, broadcastTo_1b_ab_apply]
  simp only [shapeCast_1ab_ab_apply]

/-- One tile of logits at `(r, u, v)`: over `j`, `tanh` of the encoder tile's projection at `(r, j)` plus the
    scratch's entry `(u, j)`, times `x6 (j, v)`, summed, plus the output bias at `v`. Row `r·64 + u` of the
    flattened `[2048, 512]` operand is entry `(r, u)` of the outer sum. -/
theorem logits_block (x0 : Vec Ideal S1x32x256 .bf16) (x2 : Vec Ideal S256x512 .bf16) (x3 : Vec Ideal S1x512 .f32)
    (s : Vec Ideal S64x512 .f32) (x6 : Vec Ideal S512x1024 .bf16) (x7 : Vec Ideal S1x1024 .f32)
    (z : Fin 1) (r : Fin 32) (u : Fin 64) (v : Fin 1024) :
    k0_pay2 x0 x2 x3 s x6 x7 (ix4 z r u v)
      = (∑ j : Fin 512, Ideal.tanh (((∑ e : Fin 256, x0 (ix3 (0 : Fin 1) r e) * x2 (ix2 e j)) + x3 (ix2 (0 : Fin 1) j))
          + s (ix2 u j)) * x6 (ix2 j v)) + x7 (ix2 (0 : Fin 1) v) := by
  unfold k0_pay2
  simp only [shapeCast_self, shapeCast_shapeCast]
  rw [shapeCast_abc_1abc_apply, addf_apply]
  rw [shapeCast_nc_abc_apply _ _ r u v ⟨r.val * 64 + u.val, by omega⟩ rfl]
  simp only [matmul]
  rw [matmul_zero_apply dot_S2048x512_S512x1024_S2048x1024_1_0_0_1_n_n rfl rfl rfl rfl rfl rfl]
  rw [broadcastTo_11c_abc_apply, shapeCast_c_11c_apply, shapeCast_1a_a_apply]
  refine congrArg (· + x7 (ix2 (0 : Fin 1) v)) (Finset.sum_congr rfl fun j _ => ?_)
  rw [shapeCast_abc_nc_apply _ _ r u j ⟨r.val * 64 + u.val, by omega⟩ rfl, truncf_apply, tanh_apply, addf_apply,
    broadcastTo_a1c_abc_apply, shapeCast_ac_a1c_apply, addf_apply,
    matmul_zero_apply dot_S32x256_S256x512_S32x512_1_0_0_1_n_n rfl rfl rfl rfl rfl rfl, broadcastTo_1b_ab_apply,
    broadcastTo_1bc_abc_apply, shapeCast_ab_1ab_apply]
  simp only [shapeCast_1ab_ab_apply]

end Cert.KernelIdeal.Payload

end
-- ==== Proof.KernelBlocks.lean ====
/-
  What each input window's block holds at a grid point, in terms of the argument arrays.

  The grid is `(batch, tile)` with 4 × 8 points, point `t` being batch `t / 8`, tile `t % 8`. The encoder
  window's block at `t` is rows `32·(t % 8) … 32·(t % 8) + 31` of batch `t / 8`; the predictor window's block is
  all of batch `t / 8`; the three weight matrices and the three bias rows are whole at every point. The
  arrays the windows read were written by the host before the call: a change of float format of an
  argument (the identity on the extended reals) or a `[n]` to `[1, n]` view of a bias vector.
-/
import proofs.«159690_j43662637531360_1_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The encoder window moves with both grid coordinates. -/
theorem idx0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

theorem V_v0 (c : Dev nD) : (V m c main_v0 : S4x256x256.Idx → EReal) = m ((c : Thread nD τ).loc main_arg0) := by
  dsimp only [Gen.V, Gen.hostOps0]
  after_results
  rfl

/-- The encoder block at `t`, entry `(r, e)`, is the encoder array at batch `t / 8`, row `32·(t % 8) + r`. -/
theorem iblk0 (c : Dev nD) (t : Fin cfg0.N) (z : Fin 1) (r : Fin 32) (e : Fin 256) (b : Fin 4) (row : Fin 256)
    (hb : b.val = t.val / 8) (hrow : row.val = 32 * (t.val % 8) + r.val) :
    iblk m c 0 t (ix3 z r e) = m ((c : Thread nD τ).loc main_arg0) (ix3 b row e) := by
  obtain ⟨e0, e1, e2⟩ := idx0 t
  have hz : z.val = 0 := by omega
  show V m c main_v0 (((cfg0.win 0).blk t).view.emb (ix3 z r e)) = _
  rw [V_v0]
  refine congrArg _ (funext fun a => Fin.ext ?_)
  match a with
  | ⟨0, _⟩ => show win0_0.index t (0 : Fin 3) * 1 + 1 * z.val = b.val; omega
  | ⟨1, _⟩ => show win0_0.index t (1 : Fin 3) * 32 + 1 * r.val = row.val; omega
  | ⟨2, _⟩ => show win0_0.index t (2 : Fin 3) * 256 + 1 * e.val = e.val; omega

/-- The predictor window moves with the batch coordinate only. -/
theorem idx1 : ∀ t : Fin cfg0.N, win0_1.index t (0 : Fin 3) = t.val / 8 ∧ win0_1.index t (1 : Fin 3) = 0
    ∧ win0_1.index t (2 : Fin 3) = 0 :=
  (by decide +kernel : ∀ t : Fin grid0.N, _)

theorem V_v1 (c : Dev nD) : (V m c main_v1 : S4x64x256.Idx → EReal) = m ((c : Thread nD τ).loc main_arg1) := by
  dsimp only [Gen.V, Gen.hostOps0]
  after_results
  rfl

/-- The predictor block at `t`, entry `(u, p)`, is the predictor array at batch `t / 8`. -/
theorem iblk1 (c : Dev nD) (t : Fin cfg0.N) (z : Fin 1) (u : Fin 64) (p : Fin 256) (b : Fin 4) (hb : b.val = t.val / 8) :
    iblk m c 1 t (ix3 z u p) = m ((c : Thread nD τ).loc main_arg1) (ix3 b u p) := by
  obtain ⟨e0, e1, e2⟩ := idx1 t
  have hz : z.val = 0 := by omega
  show V m c main_v1 (((cfg0.win 1).blk t).view.emb (ix3 z u p)) = _
  rw [V_v1]
  refine congrArg _ (funext fun a => Fin.ext ?_)
  match a with
  | ⟨0, _⟩ => show win0_1.index t (0 : Fin 3) * 1 + 1 * z.val = b.val; omega
  | ⟨1, _⟩ => show win0_1.index t (1 : Fin 3) * 64 + 1 * u.val = u.val; omega
  | ⟨2, _⟩ => show win0_1.index t (2 : Fin 3) * 256 + 1 * p.val = p.val; omega

/-- Window 2 is the whole array at every point. -/
theorem idx2 : ∀ t : Fin cfg0.N, win0_2.index t (0 : Fin 2) = 0 ∧ win0_2.index t (1 : Fin 2) = 0 :=
  (by decide +kernel : ∀ t : Fin grid0.N, _)

theorem V_v2 (c : Dev nD) : (V m c main_v2 : S256x512.Idx → EReal) = m ((c : Thread nD τ).loc main_arg2) := by
  dsimp only [Gen.V, Gen.hostOps0]
  after_results
  rfl

theorem iblk2 (c : Dev nD) (t : Fin cfg0.N) (e : Fin 256) (j : Fin 512) :
    iblk m c 2 t (ix2 e j) = m ((c : Thread nD τ).loc main_arg2) (ix2 e j) := by
  obtain ⟨e0, e1⟩ := idx2 t
  show V m c main_v2 (((cfg0.win 2).blk t).view.emb (ix2 e j)) = _
  rw [V_v2]
  refine congrArg _ (funext fun a => Fin.ext ?_)
  match a with
  | ⟨0, _⟩ => show win0_2.index t (0 : Fin 2) * 256 + 1 * e.val = e.val; omega
  | ⟨1, _⟩ => show win0_2.index t (1 : Fin 2) * 512 + 1 * j.val = j.val; omega

/-- Window 3 is the whole `[1, 512]` view of a bias vector at every point. -/
theorem idx3 : ∀ t : Fin cfg0.N, win0_3.index t (0 : Fin 2) = 0 ∧ win0_3.index t (1 : Fin 2) = 0 :=
  (by decide +kernel : ∀ t : Fin grid0.N, _)

theorem V_v5 (c : Dev nD) :
    (V m c main_v5 : S1x512.Idx → EReal) = shapeCast S1x512 (m ((c : Thread nD τ).loc main_arg3)) shapeCasts_S512_S1x512 := by
  dsimp only [Gen.V, Gen.hostOps0]
  after_results
  rfl

theorem iblk3 (c : Dev nD) (t : Fin cfg0.N) (z : Fin 1) (j : Fin 512) :
    iblk m c 3 t (ix2 z j) = m ((c : Thread nD τ).loc main_arg3) (ix1 j) := by
  obtain ⟨e0, e1⟩ := idx3 t
  show V m c main_v5 (((cfg0.win 3).blk t).view.emb (ix2 z j)) = _
  rw [V_v5]
  refine Eq.trans (congrArg _ (funext fun a => Fin.ext ?_)) (shapeCast_a_1a_apply _ _ z j)
  match a with
  | ⟨0, _⟩ => show win0_3.index t (0 : Fin 2) * 1 + 1 * z.val = z.val; omega
  | ⟨1, _⟩ => show win0_3.index t (1 : Fin 2) * 512 + 1 * j.val = j.val; omega

/-- Window 4 is the whole array at every point. -/
theorem idx4 : ∀ t : Fin cfg0.N, win0_4.index t (0 : Fin 2) = 0 ∧ win0_4.index t (1 : Fin 2) = 0 :=
  (by decide +kernel : ∀ t : Fin grid0.N, _)

theorem V_v3 (c : Dev nD) : (V m c main_v3 : S256x512.Idx → EReal) = m ((c : Thread nD τ).loc main_arg4) := by
  dsimp only [Gen.V, Gen.hostOps0]
  after_results
  rfl

theorem iblk4 (c : Dev nD) (t : Fin cfg0.N) (p : Fin 256) (j : Fin 512) :
    iblk m c 4 t (ix2 p j) = m ((c : Thread nD τ).loc main_arg4) (ix2 p j) := by
  obtain ⟨e0, e1⟩ := idx4 t
  show V m c main_v3 (((cfg0.win 4).blk t).view.emb (ix2 p j)) = _
  rw [V_v3]
  refine congrArg _ (funext fun a => Fin.ext ?_)
  match a with
  | ⟨0, _⟩ => show win0_4.index t (0 : Fin 2) * 256 + 1 * p.val = p.val; omega
  | ⟨1, _⟩ => show win0_4.index t (1 : Fin 2) * 512 + 1 * j.val = j.val; omega

/-- Window 5 is the whole `[1, 512]` view of a bias vector at every point. -/
theorem idx5 : ∀ t : Fin cfg0.N, win0_5.index t (0 : Fin 2) = 0 ∧ win0_5.index t (1 : Fin 2) = 0 :=
  (by decide +kernel : ∀ t : Fin grid0.N, _)

theorem V_v6 (c : Dev nD) :
    (V m c main_v6 : S1x512.Idx → EReal) = shapeCast S1x512 (m ((c : Thread nD τ).loc main_arg5)) shapeCasts_S512_S1x512 := by
  dsimp only [Gen.V, Gen.hostOps0]
  after_results
  rfl

theorem iblk5 (c : Dev nD) (t : Fin cfg0.N) (z : Fin 1) (j : Fin 512) :
    iblk m c 5 t (ix2 z j) = m ((c : Thread nD τ).loc main_arg5) (ix1 j) := by
  obtain ⟨e0, e1⟩ := idx5 t
  show V m c main_v6 (((cfg0.win 5).blk t).view.emb (ix2 z j)) = _
  rw [V_v6]
  refine Eq.trans (congrArg _ (funext fun a => Fin.ext ?_)) (shapeCast_a_1a_apply _ _ z j)
  match a with
  | ⟨0, _⟩ => show win0_5.index t (0 : Fin 2) * 1 + 1 * z.val = z.val; omega
  | ⟨1, _⟩ => show win0_5.index t (1 : Fin 2) * 512 + 1 * j.val = j.val; omega

/-- Window 6 is the whole array at every point. -/
theorem idx6 : ∀ t : Fin cfg0.N, win0_6.index t (0 : Fin 2) = 0 ∧ win0_6.index t (1 : Fin 2) = 0 :=
  (by decide +kernel : ∀ t : Fin grid0.N, _)

theorem V_v4 (c : Dev nD) : (V m c main_v4 : S512x1024.Idx → EReal) = m ((c : Thread nD τ).loc main_arg6) := by
  dsimp only [Gen.V, Gen.hostOps0]
  after_results
  rfl

theorem iblk6 (c : Dev nD) (t : Fin cfg0.N) (j : Fin 512) (v : Fin 1024) :
    iblk m c 6 t (ix2 j v) = m ((c : Thread nD τ).loc main_arg6) (ix2 j v) := by
  obtain ⟨e0, e1⟩ := idx6 t
  show V m c main_v4 (((cfg0.win 6).blk t).view.emb (ix2 j v)) = _
  rw [V_v4]
  refine congrArg _ (funext fun a => Fin.ext ?_)
  match a with
  | ⟨0, _⟩ => show win0_6.index t (0 : Fin 2) * 512 + 1 * j.val = j.val; omega
  | ⟨1, _⟩ => show win0_6.index t (1 : Fin 2) * 1024 + 1 * v.val = v.val; omega

/-- Window 7 is the whole `[1, 1024]` view of a bias vector at every point. -/
theorem idx7 : ∀ t : Fin cfg0.N, win0_7.index t (0 : Fin 2) = 0 ∧ win0_7.index t (1 : Fin 2) = 0 :=
  (by decide +kernel : ∀ t : Fin grid0.N, _)

theorem V_v7 (c : Dev nD) :
    (V m c main_v7 : S1x1024.Idx → EReal) = shapeCast S1x1024 (m ((c : Thread nD τ).loc main_arg7)) shapeCasts_S1024_S1x1024 := by
  dsimp only [Gen.V, Gen.hostOps0]
  after_results
  rfl

theorem iblk7 (c : Dev nD) (t : Fin cfg0.N) (z : Fin 1) (j : Fin 1024) :
    iblk m c 7 t (ix2 z j) = m ((c : Thread nD τ).loc main_arg7) (ix1 j) := by
  obtain ⟨e0, e1⟩ := idx7 t
  show V m c main_v7 (((cfg0.win 7).blk t).view.emb (ix2 z j)) = _
  rw [V_v7]
  refine Eq.trans (congrArg _ (funext fun a => Fin.ext ?_)) (shapeCast_a_1a_apply _ _ z j)
  match a with
  | ⟨0, _⟩ => show win0_7.index t (0 : Fin 2) * 1 + 1 * z.val = z.val; omega
  | ⟨1, _⟩ => show win0_7.index t (1 : Fin 2) * 1024 + 1 * j.val = j.val; omega

end Cert.KernelIdeal.Blocks

end
-- ==== Proof.JointSpec.lean ====
/-
  The function both programs compute, stated once over the extended reals and over literal shapes.

  For a batch `b`, an encoder frame `t`, a predictor step `u` and a vocabulary entry `v`:

    encProj  b t j = (∑ e, enc[b,t,e] · Wenc[e,j]) + benc[j]
    predProj b u j = (∑ p, pred[b,u,p] · Wdec[p,j]) + bdec[j]
    logits b t u v = (∑ j, tanh (encProj b t j + predProj b u j) · Wout[j,v]) + bout[v]

  Every sum is a finite sum of extended reals in one fixed index order; neither program
  re-associates anything, so no law of arithmetic (and no finiteness of the inputs) is needed to
  identify the two sides with this function.
-/
import Idealize.ShloMosaic.PureOps.Ideal
import Idealize.ShloMosaic.Lib.ValueIdx

noncomputable section

namespace Cert.JointSpec

open Idealize.ShloMosaic Idealize.ShloMosaic.ValueIdx

/-- The shapes of the eight arguments and of the result. -/
abbrev SEnc : Shape := ⟨3, ![4, 256, 256]⟩
abbrev SPred : Shape := ⟨3, ![4, 64, 256]⟩
abbrev SW : Shape := ⟨2, ![256, 512]⟩
abbrev SB : Shape := ⟨1, ![512]⟩
abbrev SWout : Shape := ⟨2, ![512, 1024]⟩
abbrev SBout : Shape := ⟨1, ![1024]⟩
abbrev SOut : Shape := ⟨4, ![4, 256, 64, 1024]⟩

/-- One entry of an affine projection of a row of a rank-3 array: row `(b, r)` of `x` against column `j`
    of `w`, plus the bias at `j`. -/
def proj {n r : Nat} (x : (⟨3, ![n, r, 256]⟩ : Shape).Idx → EReal) (w : SW.Idx → EReal) (bias : SB.Idx → EReal)
    (b : Fin n) (t : Fin r) (j : Fin 512) : EReal :=
  (∑ e : Fin 256, x (ix3 b t e) * w (ix2 e j)) + bias (ix1 j)

/-- The joint network's logit at `(b, t, u, v)`. -/
def logit (enc : SEnc.Idx → EReal) (pred : SPred.Idx → EReal) (wenc : SW.Idx → EReal) (benc : SB.Idx → EReal)
    (wdec : SW.Idx → EReal) (bdec : SB.Idx → EReal) (wout : SWout.Idx → EReal) (bout : SBout.Idx → EReal)
    (b : Fin 4) (t : Fin 256) (u : Fin 64) (v : Fin 1024) : EReal :=
  (∑ j : Fin 512, Ideal.tanh (proj enc wenc benc b t j + proj pred wdec bdec b u j) * wout (ix2 j v)) + bout (ix1 v)

/-- The whole result array. -/
def logits (enc : SEnc.Idx → EReal) (pred : SPred.Idx → EReal) (wenc : SW.Idx → EReal) (benc : SB.Idx → EReal)
    (wdec : SW.Idx → EReal) (bdec : SB.Idx → EReal) (wout : SWout.Idx → EReal) (bout : SBout.Idx → EReal) :
    SOut.Idx → EReal :=
  fun i => logit enc pred wenc benc wdec bdec wout bout (i 0) (i 1) (i 2) (i 3)

end Cert.JointSpec

end
-- ==== Proof.KernelValue.lean ====
/-
  The kernel's result array is the specification `JointSpec.logits` of the argument arrays.

  The grid runs over `(batch, tile)`, tile innermost, and the scratch carries the predictor projection
  from the first tile of a batch to its later tiles. So the proof has one invariant, by induction along
  the grid: after point `n` the scratch holds the predictor projection of batch `n / 8`. At a first tile
  (`n % 8 = 0`) the body has just stored it from the predictor block of that batch; at a later tile the
  body leaves the scratch alone and `(n - 1) / 8 = n / 8`. With the invariant, the tile written back at
  point `t` is, entry by entry, `logit` at batch `t / 8` and row `32·(t % 8) + r`, which is the block of
  `logits` the output window names at `t`; the 32 blocks tile the result array.
-/
import proofs.«159690_j43662637531360_1_alg».proof.Proof.Gen.KernelIdeal.Value
import proofs.«159690_j43662637531360_1_alg».proof.Proof.KernelPieces
import proofs.«159690_j43662637531360_1_alg».proof.Proof.KernelPayload
import proofs.«159690_j43662637531360_1_alg».proof.Proof.KernelBlocks
import proofs.«159690_j43662637531360_1_alg».proof.Proof.JointSpec

noncomputable section

namespace Cert.KernelIdeal.JointValue

open Cert.KernelIdeal Cert.KernelIdeal.Gen Idealize.ShloMosaic Idealize.ShloMosaic.TcCoe Idealize.SL.Sem Idealize.ShloMosaic.ValueIdx
open Cert.JointSpec Cert.KernelIdeal.Pieces Cert.KernelIdeal.Payload Cert.KernelIdeal.Blocks
open Idealize.ShloMosaic.Pipeline (Dat)

/-! ### One point's payloads against the specification, over variables -/

/-- A predictor-projection payload whose blocks are batch `b` of the predictor array, `W_dec` and `b_dec` is
    `proj` of those arrays at batch `b`. -/
theorem predProj_of_blocks (pred : SPred.Idx → EReal) (wdec : SW.Idx → EReal) (bdec : SB.Idx → EReal) (b : Fin 4)
    (x1 : Vec Ideal S1x64x256 .bf16) (x4 : Vec Ideal S256x512 .bf16) (x5 : Vec Ideal S1x512 .f32) (u : Fin 64) (j : Fin 512)
    (h1 : ∀ p : Fin 256, x1 (ix3 (0 : Fin 1) u p) = pred (ix3 b u p))
    (h4 : ∀ p : Fin 256, x4 (ix2 p j) = wdec (ix2 p j)) (h5 : x5 (ix2 (0 : Fin 1) j) = bdec (ix1 j)) :
    k0_pay1 x1 x4 x5 (ix2 u j) = proj pred wdec bdec b u j := by
  rw [predProj_block]
  simp only [h1, h4, h5]
  rfl

/-- A logits payload whose encoder block is rows of batch `b` starting at `row - r`, whose scratch operand is
    the predictor projection of batch `b`, and whose other blocks are the whole weight and bias arrays, is
    `logit` at `(b, row, u, v)`. -/
theorem logit_of_blocks (enc : SEnc.Idx → EReal) (pred : SPred.Idx → EReal) (wenc : SW.Idx → EReal) (benc : SB.Idx → EReal)
    (wdec : SW.Idx → EReal) (bdec : SB.Idx → EReal) (wout : SWout.Idx → EReal) (bout : SBout.Idx → EReal)
    (b : Fin 4) (row : Fin 256)
    (x0 : Vec Ideal S1x32x256 .bf16) (x2 : Vec Ideal S256x512 .bf16) (x3 : Vec Ideal S1x512 .f32)
    (s : Vec Ideal S64x512 .f32) (x6 : Vec Ideal S512x1024 .bf16) (x7 : Vec Ideal S1x1024 .f32)
    (z : Fin 1) (r : Fin 32) (u : Fin 64) (v : Fin 1024)
    (h0 : ∀ e : Fin 256, x0 (ix3 (0 : Fin 1) r e) = enc (ix3 b row e))
    (h2 : ∀ (e : Fin 256) (j : Fin 512), x2 (ix2 e j) = wenc (ix2 e j))
    (h3 : ∀ j : Fin 512, x3 (ix2 (0 : Fin 1) j) = benc (ix1 j))
    (hs : ∀ j : Fin 512, s (ix2 u j) = proj pred wdec bdec b u j)
    (h6 : ∀ j : Fin 512, x6 (ix2 j v) = wout (ix2 j v)) (h7 : x7 (ix2 (0 : Fin 1) v) = bout (ix1 v)) :
    k0_pay2 x0 x2 x3 s x6 x7 (ix4 z r u v) = logit enc pred wenc benc wdec bdec wout bout b row u v := by
  rw [logits_block]
  simp only [h0, h2, h3, hs, h6, h7]
  rfl

variable (m : (ℓ : Loc nD τ sig) → Buf (Elt Ideal) ℓ) (ρ : Dev nD → PrngReg)

/-! ### What a point leaves, by control case -/

theorem scratch_at_first (c : Dev nD) (t : Fin cfg0.N) (h0 : t.val % 8 = 0) :
    (outsAt0 m c t.val t.isLt).2 = k0_pay1 (iblk m c 1 t) (iblk m c 4 t) (iblk m c 5 t) := by
  rw [outsAt0_A m c t h0]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)

theorem scratch_at_later (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

theorem out_at_first (c : Dev nD) (t : Fin cfg0.N) (h0 : t.val % 8 = 0) :
    (outsAt0 m c t.val t.isLt).1
      = k0_pay2 (iblk m c 0 t) (iblk m c 2 t) (iblk m c 3 t) (k0_pay1 (iblk m c 1 t) (iblk m c 4 t) (iblk m c 5 t))
          (iblk m c 6 t) (iblk m c 7 t) := by
  rw [outsAt0_A m c t h0]
  dsimp only
  exact out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)

theorem out_at_later (c : Dev nD) (t : Fin cfg0.N) (h0 : ¬t.val % 8 = 0) :
    (outsAt0 m c t.val t.isLt).1
      = k0_pay2 (iblk m c 0 t) (iblk m c 2 t) (iblk m c 3 t)
          ((outsAt0 m c (t.val - 1) (Nat.lt_of_le_of_lt (Nat.sub_le _ _) t.isLt)).2) (iblk m c 6 t) (iblk m c 7 t) := by
  rw [outsAt0_B m c t h0]
  dsimp only
  exact out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)
    ((outsAt0 m c (t.val - 1) (Nat.lt_of_le_of_lt (Nat.sub_le _ _) t.isLt)).2)

/-! ### The invariant: the scratch holds the current batch's predictor projection -/

/-- At a first tile the scratch is the predictor projection of the point's batch. -/
theorem scratch_first_eq (c : Dev nD) (t : Fin cfg0.N) (h0 : t.val % 8 = 0) (b : Fin 4) (hb : b.val = t.val / 8)
    (u : Fin 64) (j : Fin 512) :
    (outsAt0 m c t.val t.isLt).2 (ix2 u j) = proj (m ((c : Thread nD τ).loc main_arg1)) (m ((c : Thread nD τ).loc main_arg4)) (m ((c : Thread nD τ).loc main_arg5)) b u j := by
  rw [scratch_at_first m c t h0]
  exact predProj_of_blocks (m ((c : Thread nD τ).loc main_arg1)) (m ((c : Thread nD τ).loc main_arg4)) (m ((c : Thread nD τ).loc main_arg5)) b (iblk m c 1 t) (iblk m c 4 t) (iblk m c 5 t) u j
    (fun p => iblk1 m c t (0 : Fin 1) u p b hb) (fun p => iblk4 m c t p j) (iblk5 m c t (0 : Fin 1) j)

/-- After every point `n` the scratch is the predictor projection of batch `n / 8`: stored at the batch's first
    tile, untouched at its later tiles. -/
theorem scratch_eq (c : Dev nD) : ∀ (n : ℕ) (h : n < cfg0.N) (b : Fin 4) (_ : b.val = n / 8) (u : Fin 64) (j : Fin 512),
    (outsAt0 m c n h).2 (ix2 u j) = proj (m ((c : Thread nD τ).loc main_arg1)) (m ((c : Thread nD τ).loc main_arg4)) (m ((c : Thread nD τ).loc main_arg5)) b u j := by
  intro n
  induction n with
  | zero => exact fun h b hb u j => scratch_first_eq m c ⟨0, h⟩ rfl b hb u j
  | succ n ih =>
    intro h b hb u j
    by_cases h0 : (n + 1) % 8 = 0
    · exact scratch_first_eq m c ⟨n + 1, h⟩ h0 b hb u j
    · rw [scratch_at_later m c ⟨n + 1, h⟩ h0]
      exact ih (Nat.lt_of_succ_lt h) b (by omega) u j

/-! ### What a point writes back is its block of `logits` -/

/-- The specification at the argument arrays of core `c`. -/
abbrev result (c : Dev nD) : Buf (Elt Ideal) ((c : Thread nD τ).loc main_v8) :=
  logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The output window moves with both grid coordinates. -/
theorem idx8 : ∀ t : Fin cfg0.N, win0_8.index t (0 : Fin 4) = t.val / 8 ∧ win0_8.index t (1 : Fin 4) = t.val % 8
    ∧ win0_8.index t (2 : Fin 4) = 0 ∧ win0_8.index t (3 : Fin 4) = 0 :=
  (by decide +kernel : ∀ t : Fin grid0.N, _)

/-- The tile point `t` writes back is block `t` of `logits`: entry `(r, u, v)` of the tile is `logit` at batch
    `t / 8`, row `32·(t % 8) + r`. -/
theorem flushed_eq (c : Dev nD) (t : Fin cfg0.N) :
    (dats m 0 c).flushed 8 t = ((cfg0.win 8).blk t).view.read (Elt Ideal) (result m c) := by
  rw [Value.flushed8]
  refine funext fun (y : S1x32x64x1024.Idx) => ?_
  obtain ⟨z, r, u, v, rfl⟩ : ∃ (z : Fin 1) (r : Fin 32) (u : Fin 64) (v : Fin 1024), y = ix4 z r u v :=
    ⟨y 0, y 1, y 2, y 3, eq_ix4 y⟩
  obtain ⟨e0, e1, e2, e3⟩ := idx8 t
  have hN : t.val < 32 := lt_of_lt_of_eq t.isLt (show cfg0.N = 32 from N_0)
  have hz : z.val = 0 := by omega
  obtain ⟨b, hb⟩ : ∃ b : Fin 4, b.val = t.val / 8 := ⟨⟨t.val / 8, by omega⟩, rfl⟩
  obtain ⟨row, hrow⟩ : ∃ row : Fin 256, row.val = 32 * (t.val % 8) + r.val := ⟨⟨32 * (t.val % 8) + r.val, by omega⟩, rfl⟩
  have hemb : ((cfg0.win 8).blk t).view.emb (ix4 z r u v) = ix4 b row u v := funext fun a => Fin.ext (by
    match a with
    | ⟨0, _⟩ => show win0_8.index t (0 : Fin 4) * 1 + 1 * z.val = b.val; omega
    | ⟨1, _⟩ => show win0_8.index t (1 : Fin 4) * 32 + 1 * r.val = row.val; omega
    | ⟨2, _⟩ => show win0_8.index t (2 : Fin 4) * 64 + 1 * u.val = u.val; omega
    | ⟨3, _⟩ => show win0_8.index t (3 : Fin 4) * 1024 + 1 * v.val = v.val; omega)
  show (outsAt0 m c t.val t.isLt).1 (ix4 z r u v) = result m c (((cfg0.win 8).blk t).view.emb (ix4 z r u v))
  rw [hemb]
  show _ = logit (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b row u v
  by_cases h0 : t.val % 8 = 0
  · rw [out_at_first m c t h0]
    exact logit_of_blocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b row
      (iblk m c 0 t) (iblk m c 2 t) (iblk m c 3 t) (k0_pay1 (iblk m c 1 t) (iblk m c 4 t) (iblk m c 5 t)) (iblk m c 6 t) (iblk m c 7 t)
      z r u v (fun e => iblk0 m c t (0 : Fin 1) r e b row hb hrow) (fun e j => iblk2 m c t e j) (fun j => iblk3 m c t (0 : Fin 1) j)
      (fun j => (congrFun (scratch_at_first m c t h0).symm (ix2 u j)).trans (scratch_first_eq m c t h0 b hb u j))
      (fun j => iblk6 m c t j v) (iblk7 m c t (0 : Fin 1) v)
  · rw [out_at_later m c t h0]
    exact logit_of_blocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b row
      (iblk m c 0 t) (iblk m c 2 t) (iblk m c 3 t) ((outsAt0 m c (t.val - 1) (Nat.lt_of_le_of_lt (Nat.sub_le _ _) t.isLt)).2) (iblk m c 6 t) (iblk m c 7 t)
      z r u v (fun e => iblk0 m c t (0 : Fin 1) r e b row hb hrow) (fun e j => iblk2 m c t e j) (fun j => iblk3 m c t (0 : Fin 1) j)
      (fun j => scratch_eq m c (t.val - 1) (Nat.lt_of_le_of_lt (Nat.sub_le _ _) t.isLt) b (by omega) u j)
      (fun j => iblk6 m c t j v) (iblk7 m c t (0 : Fin 1) v)

/-! ### The blocks tile the result array -/

/-- An index of the result array is in point `t`'s block iff each coordinate is in the block's range on its axis. -/
theorem mem_blk (t : Fin cfg0.N) (i : S4x256x64x1024.Idx) :
    i ∈ ((cfg0.win 8).blk t).view.set ↔ ∀ a : Fin 4, win0_8.index t a * S1x32x64x1024.size a ≤ (i a).val
      ∧ (i a).val < win0_8.index t a * S1x32x64x1024.size a + S1x32x64x1024.size a := by
  show i ∈ ((View.whole main_v8).slice (win0_8.rect t)).set ↔ _
  rw [View.set_slice_whole, Rect.mem_set_unit]
  exact Iff.rfl

/-- Every entry `(b, row, u, v)` of the result lies in the block of point `8·b + row / 32`. -/
theorem cover (i : S4x256x64x1024.Idx) :
    ∃ t : Fin cfg0.N, (cfg0.win 8).flush t = true ∧ i ∈ ((cfg0.win 8).blk t).view.set := by
  have h0 : (i 0).val < 4 := (i 0).isLt
  have h1 : (i 1).val < 256 := (i 1).isLt
  have h2 : (i 2).val < 64 := (i 2).isLt
  have h3 : (i 3).val < 1024 := (i 3).isLt
  have hN : cfg0.N = 32 := N_0
  refine ⟨⟨8 * (i 0).val + (i 1).val / 32, by rw [hN]; omega⟩, flush0_8 _, ?_⟩
  rw [mem_blk]
  obtain ⟨e0, e1, e2, e3⟩ := idx8 ⟨8 * (i 0).val + (i 1).val / 32, by rw [hN]; omega⟩
  dsimp only at e0 e1 e2 e3
  intro a
  match a with
  | ⟨0, _⟩ => show win0_8.index _ (0 : Fin 4) * 1 ≤ (i 0).val ∧ (i 0).val < win0_8.index _ (0 : Fin 4) * 1 + 1; omega
  | ⟨1, _⟩ => show win0_8.index _ (1 : Fin 4) * 32 ≤ (i 1).val ∧ (i 1).val < win0_8.index _ (1 : Fin 4) * 32 + 32; omega
  | ⟨2, _⟩ => show win0_8.index _ (2 : Fin 4) * 64 ≤ (i 2).val ∧ (i 2).val < win0_8.index _ (2 : Fin 4) * 64 + 64; omega
  | ⟨3, _⟩ => show win0_8.index _ (3 : Fin 4) * 1024 ≤ (i 3).val ∧ (i 3).val < win0_8.index _ (3 : Fin 4) * 1024 + 1024; omega

/-- The result array after the run is `logits` of the argument arrays. -/
theorem final (c : Dev nD) : (dats m 0 c).arrAt 8 cfg0.N = result m c :=
  (dats m 0 c).arrAt_eq_of_cover 8 (result m c) (fun t _ => flushed_eq m c t) cover

/-- The kernel's run: every weakly fair execution terminates with the result array at `logits` of the
    arguments and the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.JointValue

end
-- ==== Proof.RefValue.lean ====
/-
  The reference program, read at an index, is the specification `JointSpec.logits`.

  The reference computes the two affine projections as `dot_general`s plus a broadcast bias, aligns
  them by inserting a unit axis and broadcasting (`enc[:, :, None, :] + pred[:, None, :, :]`), applies
  `tanh`, contracts with `W_out` and adds the broadcast output bias. Read at `(b, t, u, v)`, each
  broadcast reads its operand at the coordinates it keeps, each `dot_general` is the sum over its one
  contracted axis, and what is left is literally `logit … b t u v`.
-/
import proofs.«159690_j43662637531360_1_alg».proof.Proof.Gen.ReferenceIdeal.Read
import proofs.«159690_j43662637531360_1_alg».proof.Proof.JointSpec

noncomputable section

namespace Cert.ReferenceIdeal.RefValue

open Cert.ReferenceIdeal Cert.ReferenceIdeal.Read Idealize.ShloMosaic Idealize.ShloMosaic.ValueIdx Cert.JointSpec

/-! ### The index maps of the reference's layout operations, at coordinates -/

theorem lidx14 (b : Fin 4) (t : Fin 256) (u : Fin 64) (v : Fin 1024) (k : Fin 512) :
    lidx_main_v14 (ix4 b t u v) k = ix4 b t u k :=
  funext fun a => by match a with | ⟨0, _⟩ => rfl | ⟨1, _⟩ => rfl | ⟨2, _⟩ => rfl | ⟨3, _⟩ => rfl

theorem ridx14 (b : Fin 4) (t : Fin 256) (u : Fin 64) (v : Fin 1024) (k : Fin 512) :
    ridx_main_v14 (ix4 b t u v) k = ix2 k v :=
  funext fun a => by match a with | ⟨0, _⟩ => rfl | ⟨1, _⟩ => rfl

theorem idx15_16 (b : Fin 4) (t : Fin 256) (u : Fin 64) (v : Fin 1024) :
    idx_main_v15 (idx_main_v16 (ix4 b t u v)) = ix1 v :=
  funext fun a => by match a with | ⟨0, _⟩ => rfl

/-- The encoder side of the broadcast add reads the encoder projection at `(b, t, k)`: the inserted axis `u` is dropped. -/
theorem idx8_10 (b : Fin 4) (t : Fin 256) (u : Fin 64) (k : Fin 512) :
    idx_main_v8 (idx_main_v10 (ix4 b t u k)) = ix3 b t k :=
  funext fun a => by match a with | ⟨0, _⟩ => rfl | ⟨1, _⟩ => rfl | ⟨2, _⟩ => rfl

/-- The predictor side reads the predictor projection at `(b, u, k)`: the inserted axis `t` is dropped. -/
theorem idx9_11 (b : Fin 4) (t : Fin 256) (u : Fin 64) (k : Fin 512) :
    idx_main_v9 (idx_main_v11 (ix4 b t u k)) = ix3 b u k :=
  funext fun a => by match a with | ⟨0, _⟩ => rfl | ⟨1, _⟩ => rfl | ⟨2, _⟩ => rfl

theorem lidx0 (b : Fin 4) (t : Fin 256) (k : Fin 512) (e : Fin 256) :
    lidx_main_v0 (ix3 b t k) e = ix3 b t e :=
  funext fun a => by match a with | ⟨0, _⟩ => rfl | ⟨1, _⟩ => rfl | ⟨2, _⟩ => rfl

theorem ridx0 (b : Fin 4) (t : Fin 256) (k : Fin 512) (e : Fin 256) :
    ridx_main_v0 (ix3 b t k) e = ix2 e k :=
  funext fun a => by match a with | ⟨0, _⟩ => rfl | ⟨1, _⟩ => rfl

theorem lidx4 (b : Fin 4) (u : Fin 64) (k : Fin 512) (e : Fin 256) :
    lidx_main_v4 (ix3 b u k) e = ix3 b u e :=
  funext fun a => by match a with | ⟨0, _⟩ => rfl | ⟨1, _⟩ => rfl | ⟨2, _⟩ => rfl

theorem ridx4 (b : Fin 4) (u : Fin 64) (k : Fin 512) (e : Fin 256) :
    ridx_main_v4 (ix3 b u k) e = ix2 e k :=
  funext fun a => by match a with | ⟨0, _⟩ => rfl | ⟨1, _⟩ => rfl

theorem idx1_2 (b : Fin 4) (t : Fin 256) (k : Fin 512) :
    idx_main_v1 (idx_main_v2 (ix3 b t k)) = ix1 k :=
  funext fun a => by match a with | ⟨0, _⟩ => rfl

theorem idx5_6 (b : Fin 4) (u : Fin 64) (k : Fin 512) :
    idx_main_v5 (idx_main_v6 (ix3 b u k)) = ix1 k :=
  funext fun a => by match a with | ⟨0, _⟩ => rfl

/-! ### The reference is the specification -/

/-- The reference's result, as a function of its eight arguments, is `logits` of them. -/
theorem ref_eq (x0 : SEnc.Idx → EReal) (x1 : SPred.Idx → EReal) (x2 : SW.Idx → EReal) (x3 : SB.Idx → EReal)
    (x4 : SW.Idx → EReal) (x5 : SB.Idx → EReal) (x6 : SWout.Idx → EReal) (x7 : SBout.Idx → EReal) :
    val_main_v17 (F := Ideal) x0 x1 x2 x3 x4 x5 x6 x7 = logits x0 x1 x2 x3 x4 x5 x6 x7 := by
  funext i
  obtain ⟨b, t, u, v, rfl⟩ : ∃ (b : Fin 4) (t : Fin 256) (u : Fin 64) (v : Fin 1024), i = ix4 b t u v :=
    ⟨i 0, i 1, i 2, i 3, eq_ix4 i⟩
  unfold logits logit proj
  simp only [val_main_v17_apply, val_main_v14_apply, val_main_v16_apply, val_main_v15_apply, val_main_v13_apply,
    val_main_v12_apply, val_main_v10_apply, val_main_v11_apply, val_main_v8_apply, val_main_v9_apply,
    val_main_v3_apply, val_main_v7_apply, val_main_v0_apply, val_main_v4_apply, val_main_v2_apply, val_main_v1_apply,
    val_main_v6_apply, val_main_v5_apply, lidx14, ridx14, idx15_16, idx8_10, idx9_11, lidx0, ridx0, lidx4, ridx4,
    idx1_2, idx5_6, Ideal.addf_def, Ideal.hostUnary_tanh_def]

end Cert.ReferenceIdeal.RefValue

end
-- ==== Proof.lean ====
/-
  The certificate of the fused joint-network kernel against its jnp reference.

  Both programs compute, for batch `b`, encoder frame `t`, predictor step `u` and vocabulary entry `v`,

    (∑ j, tanh ((∑ e, enc[b,t,e]·Wenc[e,j]) + benc[j] + (∑ p, pred[b,u,p]·Wdec[p,j]) + bdec[j]) · Wout[j,v]) + bout[v]

  (`JointSpec.logits`). The reference does so with three `dot_general`s over whole arrays; the kernel does so
  tile by tile over a `(batch, tile)` grid, keeping the predictor projection of the current batch in a
  scratch buffer that it fills at the batch's first tile. Over the extended reals the changes of float
  format are the identity and each product is the same finite sum in the same order, so the two results
  agree entry by entry with no appeal to finiteness of the inputs. The three frames are the generated
  ones (the reference's is its generated run with the result dropped); the idealization rewrote nothing.
-/
import proofs.«159690_j43662637531360_1_alg».proof.Defs
import proofs.«159690_j43662637531360_1_alg».proof.Proof.Gen.Kernel
import proofs.«159690_j43662637531360_1_alg».proof.Proof.Gen.Kernel.Skeleton
import proofs.«159690_j43662637531360_1_alg».proof.Proof.Gen.Kernel.Launch
import proofs.«159690_j43662637531360_1_alg».proof.Proof.Gen.Kernel.Points
import proofs.«159690_j43662637531360_1_alg».proof.Proof.Gen.Kernel.Frame
import proofs.«159690_j43662637531360_1_alg».proof.Proof.Gen.KernelIdeal
import proofs.«159690_j43662637531360_1_alg».proof.Proof.Gen.KernelIdeal.Skeleton
import proofs.«159690_j43662637531360_1_alg».proof.Proof.Gen.KernelIdeal.Launch
import proofs.«159690_j43662637531360_1_alg».proof.Proof.Gen.KernelIdeal.Points
import proofs.«159690_j43662637531360_1_alg».proof.Proof.Gen.KernelIdeal.Frame
import proofs.«159690_j43662637531360_1_alg».proof.Proof.Gen.ReferenceIdeal
import proofs.«159690_j43662637531360_1_alg».proof.Proof.Gen.Pre_finite_inputs
import proofs.«159690_j43662637531360_1_alg».proof.Proof.Gen.KernelIdeal.Value
import proofs.«159690_j43662637531360_1_alg».proof.Proof.Gen.ReferenceIdeal.Run
import proofs.«159690_j43662637531360_1_alg».proof.Proof.Gen.ReferenceIdeal.Read
import proofs.«159690_j43662637531360_1_alg».proof.Proof.KernelValue
import proofs.«159690_j43662637531360_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eight arguments, the kernel's result array and the reference's result both
    end at `logits` of those arguments. -/
theorem algebraic : Cert.algebraic_KernelIdeal_ReferenceIdeal := by
  intro m ρ m' ρ' _ hagree
  refine ⟨fun c => Cert.KernelIdeal.JointValue.result m c, Cert.KernelIdeal.JointValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.ReferenceIdeal.Read.val_main_v17_eq _ _ _ _ _ _ _ _).trans
    (Cert.ReferenceIdeal.RefValue.ref_eq _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
